-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S8192 : Shape := ⟨1, ![8192]⟩
abbrev S512x256 : Shape := ⟨2, ![512, 256]⟩
abbrev S4096x256 : Shape := ⟨2, ![4096, 256]⟩
abbrev S512 : Shape := ⟨1, ![512]⟩
abbrev S512x4096 : Shape := ⟨2, ![512, 4096]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S8192, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S4096x256, .f32⟩
  | .local _ .vmem, ⟨5, _⟩ => ⟨S4096x256, .f32⟩
  | .local _ .vmem, ⟨6, _⟩ => ⟨S1x4096, .f32⟩
  | .local _ .vmem, ⟨7, _⟩ => ⟨S512, .f32⟩
  | .local _ .vmem, ⟨8, _⟩ => ⟨S512, .f32⟩
  | .local _ .vmem, ⟨9, _⟩ => ⟨S512x4096, .f32⟩
  | .local _ .vmem, ⟨10, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  inb_S512_S512_0 : ∀ a, (![0] : Fin 1 → Nat) a + S512.size a ≤ S512.size a
  h_S512 : 0 < S512.numel
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .f32 = 32 ∨ (Rect.block (s := S8192x4096) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x4096.size a
  hwx0_1 : ∀ i : grid0.Coords, EltTy.bits .f32 = 32 ∨ (Rect.block (s := S8192x4096) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x4096.size a
  hwx0_2 : ∀ i : grid0.Coords, EltTy.bits .f32 = 32 ∨ (Rect.block (s := S4096x4096) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .f32 = 32 ∨ (Rect.block (s := S8192) S512.size (cc0_transform_4 i) (hinb0_4 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S8192 : Shape := ⟨1, ![8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call1_cst : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  h_S_ : 0 < S_.numel
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the kernel body leaves behind, as values, for any float instance.

  The body runs in one of three ways, by the position `kb` of the grid point along the contraction axis:

  * first block (`kb = 0`): both accumulators are stored whole with zeros, read back, and stored whole again with
    the zeros plus the block's partial contraction — so each ends at `step x w zeros`, whatever it held before;
  * middle block: each accumulator `acc` ends at `step x w acc`;
  * last block (`kb = 15`): each accumulator takes its step, then the bias and the activation, and the output block
    is stored with the lane sum of the product of the two — a function of the point's input blocks and of what the
    point before left in the two accumulators.

  Every store covers its whole buffer and every load reads a whole buffer, so each buffer's final contents are the
  last store's value, and a load after a store reads that store's value.
-/
import proofs.«107318_j72052371357831_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- A store or load at the origin of a buffer of its own extents reaches every element (rank 2, rank 1). -/
theorem hz2 : (![0, 0] : Fin 2 → Nat) = fun _ => 0 := funext fun a => by fin_cases a <;> rfl
theorem hz1 : (![0] : Fin 1 → Nat) = fun _ => 0 := funext fun a => by fin_cases a; rfl

/-- First block, first accumulator: the zeros plus the block's partial contraction. -/
theorem acc0_first (c : Dev nD) (i : grid0.Coords) (a2 : Memref sig .tc .vmem S512x256 .f32) (h2 : a2.IsWhole) (a3 : Memref sig .tc .vmem S512x256 .f32) (h3 : a3.IsWhole) (a4 : Memref sig .tc .vmem S4096x256 .f32) (h4 : a4.IsWhole) (a5 : Memref sig .tc .vmem S1x4096 .f32) (h5 : a5.IsWhole) (a6 : Memref sig .tc .vmem S512 .f32) (h6 : a6.IsWhole) (a7 : Memref sig .tc .vmem S512x4096 .f32) (h7 : a7.IsWhole) (a8 : Memref sig .tc .vmem S512x4096 .f32) (h8 : a8.IsWhole) (hc0 : cond0_0 i) (hc1 : ¬cond0_1 i) (x0 : Vec F S512x256 .f32) (x1 : Vec F S512x256 .f32) (x2 : Vec F S4096x256 .f32) (x3 : Vec F S1x4096 .f32) :
    sout0_A_0 c i a2 h2 a3 h3 a4 h4 a5 h5 a6 h6 a7 h7 a8 h8 hc0 hc1 x0 x1 x2 x3 = k0_pay4 x0 x2 k0_pay1 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S512x4096) hz2]
  simp only [View.readCov_cons_toLoadRect, View.readAt_eq_ld, h2.read_unread, h3.read_unread, h4.read_unread, h5.read_unread, h7.read_unread, h8.read_unread, View.ld_unit_zero (S := S512x256) hz2, View.ld_unit_zero (S := S4096x256) hz2, View.ld_unit_zero (S := S512x4096) hz2, View.ld_unit_zero (S := S1x4096) hz2]

/-- First block, second accumulator. -/
theorem acc1_first (c : Dev nD) (i : grid0.Coords) (a2 : Memref sig .tc .vmem S512x256 .f32) (h2 : a2.IsWhole) (a3 : Memref sig .tc .vmem S512x256 .f32) (h3 : a3.IsWhole) (a4 : Memref sig .tc .vmem S4096x256 .f32) (h4 : a4.IsWhole) (a5 : Memref sig .tc .vmem S1x4096 .f32) (h5 : a5.IsWhole) (a6 : Memref sig .tc .vmem S512 .f32) (h6 : a6.IsWhole) (a7 : Memref sig .tc .vmem S512x4096 .f32) (h7 : a7.IsWhole) (a8 : Memref sig .tc .vmem S512x4096 .f32) (h8 : a8.IsWhole) (hc0 : cond0_0 i) (hc1 : ¬cond0_1 i) (x0 : Vec F S512x256 .f32) (x1 : Vec F S512x256 .f32) (x2 : Vec F S4096x256 .f32) (x3 : Vec F S1x4096 .f32) :
    sout0_A_1 c i a2 h2 a3 h3 a4 h4 a5 h5 a6 h6 a7 h7 a8 h8 hc0 hc1 x0 x1 x2 x3 = k0_pay5 x1 x2 k0_pay2 := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S512x4096) hz2]
  simp only [View.readCov_cons_toLoadRect, View.readAt_eq_ld, h2.read_unread, h3.read_unread, h4.read_unread, h5.read_unread, h7.read_unread, h8.read_unread, View.ld_unit_zero (S := S512x256) hz2, View.ld_unit_zero (S := S4096x256) hz2, View.ld_unit_zero (S := S512x4096) hz2, View.ld_unit_zero (S := S1x4096) hz2]

/-- Middle block, first accumulator: what it held plus the block's partial contraction. -/
theorem acc0_step (c : Dev nD) (i : grid0.Coords) (a2 : Memref sig .tc .vmem S512x256 .f32) (h2 : a2.IsWhole) (a3 : Memref sig .tc .vmem S512x256 .f32) (h3 : a3.IsWhole) (a4 : Memref sig .tc .vmem S4096x256 .f32) (h4 : a4.IsWhole) (a5 : Memref sig .tc .vmem S1x4096 .f32) (h5 : a5.IsWhole) (a6 : Memref sig .tc .vmem S512 .f32) (h6 : a6.IsWhole) (a7 : Memref sig .tc .vmem S512x4096 .f32) (h7 : a7.IsWhole) (a8 : Memref sig .tc .vmem S512x4096 .f32) (h8 : a8.IsWhole) (hc0 : ¬cond0_0 i) (hc1 : ¬cond0_1 i) (x0 : Vec F S512x256 .f32) (x1 : Vec F S512x256 .f32) (x2 : Vec F S4096x256 .f32) (x3 : Vec F S1x4096 .f32) (xs0 : Vec F S512x4096 .f32) (xs1 : Vec F S512x4096 .f32) :
    sout0_B_0 c i a2 h2 a3 h3 a4 h4 a5 h5 a6 h6 a7 h7 a8 h8 hc0 hc1 x0 x1 x2 x3 xs0 xs1 = k0_pay4 x0 x2 xs0 := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  rw [View.canon_unit_zero hz2]
  simp only [View.readCov_cons_toLoadRect, View.readAt_eq_ld, h2.read_unread, h3.read_unread, h4.read_unread, h5.read_unread, h7.read_unread, h8.read_unread, View.ld_unit_zero (S := S512x256) hz2, View.ld_unit_zero (S := S4096x256) hz2, View.ld_unit_zero (S := S512x4096) hz2, View.ld_unit_zero (S := S1x4096) hz2]

/-- Middle block, second accumulator. -/
theorem acc1_step (c : Dev nD) (i : grid0.Coords) (a2 : Memref sig .tc .vmem S512x256 .f32) (h2 : a2.IsWhole) (a3 : Memref sig .tc .vmem S512x256 .f32) (h3 : a3.IsWhole) (a4 : Memref sig .tc .vmem S4096x256 .f32) (h4 : a4.IsWhole) (a5 : Memref sig .tc .vmem S1x4096 .f32) (h5 : a5.IsWhole) (a6 : Memref sig .tc .vmem S512 .f32) (h6 : a6.IsWhole) (a7 : Memref sig .tc .vmem S512x4096 .f32) (h7 : a7.IsWhole) (a8 : Memref sig .tc .vmem S512x4096 .f32) (h8 : a8.IsWhole) (hc0 : ¬cond0_0 i) (hc1 : ¬cond0_1 i) (x0 : Vec F S512x256 .f32) (x1 : Vec F S512x256 .f32) (x2 : Vec F S4096x256 .f32) (x3 : Vec F S1x4096 .f32) (xs0 : Vec F S512x4096 .f32) (xs1 : Vec F S512x4096 .f32) :
    sout0_B_1 c i a2 h2 a3 h3 a4 h4 a5 h5 a6 h6 a7 h7 a8 h8 hc0 hc1 x0 x1 x2 x3 xs0 xs1 = k0_pay5 x1 x2 xs1 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  rw [View.canon_unit_zero hz2]
  simp only [View.readCov_cons_toLoadRect, View.readAt_eq_ld, h2.read_unread, h3.read_unread, h4.read_unread, h5.read_unread, h7.read_unread, h8.read_unread, View.ld_unit_zero (S := S512x256) hz2, View.ld_unit_zero (S := S4096x256) hz2, View.ld_unit_zero (S := S512x4096) hz2, View.ld_unit_zero (S := S1x4096) hz2]

/-- Last block, the output block: the lane sum of the product of the two accumulators after their last step, the bias
    and the activation. -/
theorem out_last (c : Dev nD) (i : grid0.Coords) (a2 : Memref sig .tc .vmem S512x256 .f32) (h2 : a2.IsWhole) (a3 : Memref sig .tc .vmem S512x256 .f32) (h3 : a3.IsWhole) (a4 : Memref sig .tc .vmem S4096x256 .f32) (h4 : a4.IsWhole) (a5 : Memref sig .tc .vmem S1x4096 .f32) (h5 : a5.IsWhole) (a6 : Memref sig .tc .vmem S512 .f32) (h6 : a6.IsWhole) (a7 : Memref sig .tc .vmem S512x4096 .f32) (h7 : a7.IsWhole) (a8 : Memref sig .tc .vmem S512x4096 .f32) (h8 : a8.IsWhole) (hc0 : ¬cond0_0 i) (hc1 : cond0_1 i) (x0 : Vec F S512x256 .f32) (x1 : Vec F S512x256 .f32) (x2 : Vec F S4096x256 .f32) (x3 : Vec F S1x4096 .f32) (xs0 : Vec F S512x4096 .f32) (xs1 : Vec F S512x4096 .f32) :
    out0_C_4 c i a2 h2 a3 h3 a4 h4 a5 h5 a6 h6 a7 h7 a8 h8 hc0 hc1 x0 x1 x2 x3 xs0 xs1
      = k0_pay9 (k0_pay7 x3 (k0_pay4 x0 x2 xs0)) (k0_pay8 x3 (k0_pay5 x1 x2 xs1)) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero hz1]
  simp only [View.readCov_cons_toLoadRect, View.readAt_eq_ld, h2.read_unread, h3.read_unread, h4.read_unread, h5.read_unread, h7.read_unread, h8.read_unread, View.ld_unit_zero (S := S512x256) hz2, View.ld_unit_zero (S := S4096x256) hz2, View.ld_unit_zero (S := S512x4096) hz2, View.ld_unit_zero (S := S1x4096) hz2]

end Cert.KernelIdeal.Pieces

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.Spec.lean ====
/-
  The specification: what both programs compute, as one function of the four argument arrays.

  For inputs `x1, x2 : [8192, 4096]`, a weight `W : [4096, 4096]` and a bias `b : [4096]`, one linear layer
  is `lin x W b n j = (∑ k, x[n, k] * W[j, k]) + b[j]` (row `n` of `x` against row `j` of `W`: the product with
  the transposed weight), its activation is the maximum with zero, and the result at row `n` is the sum over
  `j` of the product of the two activated layers, taken from the zero word:

      G x1 x2 W b n = 0 + ∑ j, max (lin x1 W b n j) 0 * max (lin x2 W b n j) 0.

  The only float literal in either program is the zero word, kept as `zw`; its value is `0` (`zw_eq`).

  The contraction index `k < 4096` is position `kk < 256` of block `s < 16`, `k = 256 * s + kk` (`pos`), and a
  sum over `k` is the sum over the blocks of the blocks' sums (`sum_pos`): the one law that joins a contraction
  accumulated block by block to the whole contraction. It is a re-indexing of a finite sum in a commutative
  monoid, so it needs no finiteness of the summands.
-/
import Idealize.ShloMosaic.PureOps.Ideal
import Idealize.ShloMosaic.PureOps.Ideal.Laws
import Idealize.ShloMosaic.Lib.ValueIdx
import proofs.«107318_j72052371357831_1_alg».proof.Proof.LibSumBlocks

noncomputable section

namespace Cert.Spec

open Idealize.ShloMosaic Idealize.ShloMosaic.ValueIdx

/-- The shapes of the two inputs, the weight, the bias and the result. -/
abbrev SX : Shape := ⟨2, ![8192, 4096]⟩
abbrev SW : Shape := ⟨2, ![4096, 4096]⟩
abbrev SB : Shape := ⟨1, ![4096]⟩
abbrev SO : Shape := ⟨1, ![8192]⟩

/-- The zero word's value, the only float literal of either program. -/
abbrev zw : EReal := Ideal.ofBits .f32 0x00000000#32

/-- The zero word denotes zero. -/
theorem zw_eq : zw = 0 := Ideal.ofBits_zero_f32

/-- Position `kk` of contraction block `s`: `256 * s + kk`. -/
def pos (s : Fin 16) (kk : Fin 256) : Fin 4096 :=
  ⟨256 * s.val + kk.val, by have := s.isLt; have := kk.isLt; omega⟩

theorem pos_val (s : Fin 16) (kk : Fin 256) : (pos s kk).val = 256 * s.val + kk.val := rfl

/-- A sum over the 4096 contraction positions is the sum over the 16 blocks of each block's 256 terms. -/
theorem sum_pos {M : Type*} [AddCommMonoid M] (f : Fin 4096 → M) :
    ∑ k : Fin 4096, f k = ∑ s : Fin 16, ∑ kk : Fin 256, f (pos s kk) := by
  rw [← Equiv.sum_comp (finCongr (show 16 * 256 = 4096 by norm_num)) f, Cert.SumBlocks.sum_blocks 16 256]
  refine Finset.sum_congr rfl fun s _ => Finset.sum_congr rfl fun kk _ => congrArg f (Fin.ext ?_)
  show kk.val + 256 * s.val = 256 * s.val + kk.val
  omega

/-- One linear layer before its activation: row `n` of `x` contracted with row `j` of `W`, plus the bias at `j`. -/
def lin (x : SX.Idx → EReal) (W : SW.Idx → EReal) (b : SB.Idx → EReal) (n : Fin 8192) (j : Fin 4096) : EReal :=
  (∑ k : Fin 4096, x (ix2 n k) * W (ix2 j k)) + b (ix1 j)

/-- The result: at row `n`, from the zero word, the sum over `j` of the product of the two activated layers. -/
def G (x1 x2 : SX.Idx → EReal) (W : SW.Idx → EReal) (b : SB.Idx → EReal) : SO.Idx → EReal :=
  fun i => zw + ∑ j : Fin 4096, max (lin x1 W b (i 0) j) zw * max (lin x2 W b (i 0) j) zw

end Cert.Spec

end
-- ==== Proof.Payloads.lean ====
/-
  The kernel body's arithmetic, read at an index over the extended reals.

  The body's stored values are five kinds of term over the values it loads. Read at an explicit position:

  * the reset stores the zero word everywhere;
  * an accumulation step stores, at `(r, j)`, what the accumulator held there plus the block's partial
    contraction `∑ kk < 256, x[r, kk] * w[j, kk]` — a matrix product into a zero accumulator, contracting the
    second axis of both operands; the narrowing of the operands' format on the way in is the identity on values;
  * the epilogue stores, at `(r, j)`, `max (acc[r, j] + b[0, j]) 0`: the bias row spread over the rows, then
    the activation;
  * the output block is, at `r`, `∑ j < 4096, a[r, j] * b[r, j]`: a lane sum of the pointwise product, from the
    zero accumulator.
-/
import proofs.«107318_j72052371357831_1_alg».proof.Proof.Gen.KernelIdeal.Skeleton
import proofs.«107318_j72052371357831_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx Cert.Spec

/-! ## The block's matrix product -/

/-- The product's left operand index at output `i`: row `i 0` … -/
theorem mm_lhs0 (i : S512x4096.Idx) (q : dot_S512x256_S4096x256_S512x4096_1_1_0_0_n_n.contr.Idx) :
    (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
/-- … at the contraction position; -/
theorem mm_lhs1 (i : S512x4096.Idx) (q : dot_S512x256_S4096x256_S512x4096_1_1_0_0_n_n.contr.Idx) :
    (dot_S512x256_S4096x256_S512x4096_1_1_0_0_n_n.lhsIdx i q 1).val = (q ⟨0, by decide⟩).val :=
  dot_S512x256_S4096x256_S512x4096_1_1_0_0_n_n.lhsIdx_val_of_single rfl i q
/-- the right operand's: row `i 1` … -/
theorem mm_rhs0 (i : S512x4096.Idx) (q : dot_S512x256_S4096x256_S512x4096_1_1_0_0_n_n.contr.Idx) :
    (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
/-- … at the contraction position. -/
theorem mm_rhs1 (i : S512x4096.Idx) (q : dot_S512x256_S4096x256_S512x4096_1_1_0_0_n_n.contr.Idx) :
    (dot_S512x256_S4096x256_S512x4096_1_1_0_0_n_n.rhsIdx i q 1).val = (q ⟨0, by decide⟩).val :=
  dot_S512x256_S4096x256_S512x4096_1_1_0_0_n_n.rhsIdx_val_of_single rfl i q

/-- One block's matrix product into the zero accumulator, at `(r, j)`: the sum over the block's 256 positions of
    `x[r, kk] * w[j, kk]`. The operands' change of format is the identity on values. -/
theorem mm_apply (x : FVec Ideal S512x256 .f32) (w : FVec Ideal S4096x256 .f32) (r : Fin 512) (j : Fin 4096) :
    matmul dot_S512x256_S4096x256_S512x4096_1_1_0_0_n_n none (truncf .bf16 x bitsLt_bf16_f32) (truncf .bf16 w bitsLt_bf16_f32)
        (constant (F := Ideal) S512x4096 .f32 0x00000000#32) (ix2 r j)
      = ∑ kk : Fin 256, x (ix2 r kk) * w (ix2 j kk) := by
  simp only [matmul]
  rw [Ideal.matmul_constant_zero_apply, ← Equiv.sum_comp (ValueIdx.contrEquiv1 dot_S512x256_S4096x256_S512x4096_1_1_0_0_n_n 256 rfl rfl).symm]
  refine Finset.sum_congr rfl fun k _ => ?_
  have hk := ValueIdx.contrEquiv1_symm_val dot_S512x256_S4096x256_S512x4096_1_1_0_0_n_n 256 rfl rfl k
  have el : dot_S512x256_S4096x256_S512x4096_1_1_0_0_n_n.lhsIdx (ix2 r j) ((ValueIdx.contrEquiv1 dot_S512x256_S4096x256_S512x4096_1_1_0_0_n_n 256 rfl rfl).symm k) = ix2 r k := funext fun a => Fin.ext (by
    match a with
    | ⟨0, _⟩ => exact mm_lhs0 _ _
    | ⟨1, _⟩ => exact (mm_lhs1 _ _).trans hk)
  have er : dot_S512x256_S4096x256_S512x4096_1_1_0_0_n_n.rhsIdx (ix2 r j) ((ValueIdx.contrEquiv1 dot_S512x256_S4096x256_S512x4096_1_1_0_0_n_n 256 rfl rfl).symm k) = ix2 j k := funext fun a => Fin.ext (by
    match a with
    | ⟨0, _⟩ => exact mm_rhs0 _ _
    | ⟨1, _⟩ => exact (mm_rhs1 _ _).trans hk)
  rw [el, er]
  rfl

/-! ## The payloads -/

/-- The reset's stored value: the zero word everywhere (first accumulator). -/
theorem pay1_apply (i : S512x4096.Idx) : k0_pay1 (F := Ideal) i = zw := by
  unfold k0_pay1
  rw [shapeCast_self]
  rfl

/-- The reset's stored value: the zero word everywhere (second accumulator). -/
theorem pay2_apply (i : S512x4096.Idx) : k0_pay2 (F := Ideal) i = zw := by
  unfold k0_pay2
  rw [shapeCast_self]
  rfl

/-- An accumulation step of the first accumulator at `(r, j)`: what it held plus the block's partial contraction. -/
theorem pay4_apply (x : FVec Ideal S512x256 .f32) (w : FVec Ideal S4096x256 .f32) (acc : FVec Ideal S512x4096 .f32)
    (r : Fin 512) (j : Fin 4096) :
    k0_pay4 (F := Ideal) x w acc (ix2 r j) = acc (ix2 r j) + ∑ kk : Fin 256, x (ix2 r kk) * w (ix2 j kk) := by
  unfold k0_pay4 k0_pay3
  dsimp only
  rw [shapeCast_self]
  exact congrArg (acc (ix2 r j) + ·) (mm_apply x w r j)

/-- An accumulation step of the second accumulator at `(r, j)`. -/
theorem pay5_apply (x : FVec Ideal S512x256 .f32) (w : FVec Ideal S4096x256 .f32) (acc : FVec Ideal S512x4096 .f32)
    (r : Fin 512) (j : Fin 4096) :
    k0_pay5 (F := Ideal) x w acc (ix2 r j) = acc (ix2 r j) + ∑ kk : Fin 256, x (ix2 r kk) * w (ix2 j kk) := by
  unfold k0_pay5 k0_pay3
  dsimp only
  rw [shapeCast_self]
  exact congrArg (acc (ix2 r j) + ·) (mm_apply x w r j)

/-- The bias row spread over the rows, at `(r, j)`: the row's entry `j`. -/
theorem bias_apply (b : FVec Ideal S1x4096 .f32) (r : Fin 512) (j : Fin 4096) :
    broadcastTo S512x4096 (k0_pay6 (F := Ideal) b) broadcasts_S1x4096_S512x4096 (ix2 r j) = b (ix2 (0 : Fin 1) j) := by
  unfold k0_pay6
  dsimp only
  rw [shapeCast_self]
  exact broadcastTo_1b_ab_apply b broadcasts_S1x4096_S512x4096 r j

/-- The epilogue of the first accumulator at `(r, j)`: bias added, then the maximum with the zero word. -/
theorem pay7_apply (b : FVec Ideal S1x4096 .f32) (acc : FVec Ideal S512x4096 .f32) (r : Fin 512) (j : Fin 4096) :
    k0_pay7 (F := Ideal) b acc (ix2 r j) = max (acc (ix2 r j) + b (ix2 (0 : Fin 1) j)) zw := by
  unfold k0_pay7
  rw [shapeCast_self]
  exact congrArg (fun t => max (acc (ix2 r j) + t) zw) (bias_apply b r j)

/-- The epilogue of the second accumulator at `(r, j)`. -/
theorem pay8_apply (b : FVec Ideal S1x4096 .f32) (acc : FVec Ideal S512x4096 .f32) (r : Fin 512) (j : Fin 4096) :
    k0_pay8 (F := Ideal) b acc (ix2 r j) = max (acc (ix2 r j) + b (ix2 (0 : Fin 1) j)) zw := by
  unfold k0_pay8
  rw [shapeCast_self]
  exact congrArg (fun t => max (acc (ix2 r j) + t) zw) (bias_apply b r j)

/-- The output block at `r`: the lane sum of the two accumulators' pointwise product. -/
theorem pay9_apply (a b : FVec Ideal S512x4096 .f32) (r : Fin 512) :
    k0_pay9 (F := Ideal) a b (ix1 r) = ∑ j : Fin 4096, a (ix2 r j) * b (ix2 r j) := by
  unfold k0_pay9
  dsimp only
  refine (Ideal.multiReduction_add_single (mulf a b) 0x00000000#32 reduces_S512x4096_S512 (.inl rfl) rfl (ix1 r)).trans ?_
  refine Finset.sum_congr rfl fun k _ => ?_
  exact congrArg (mulf a b) (funext fun ax => Fin.ext (by match ax with | ⟨0, _⟩ => rfl | ⟨1, _⟩ => rfl))

end Cert.KernelIdeal.Payloads

end
-- ==== Proof.Blocks.lean ====
/-
  The input blocks of a grid point, read off the argument arrays.

  Grid point `t < 256` is row block `t / 16` and contraction block `t % 16`. At it the two inputs' windows hold the
  `512 × 256` block at rows `512 * (t / 16) + r` and columns `256 * (t % 16) + kk`; the weight's window holds all
  4096 rows at those same columns; the bias's window holds the whole `1 × 4096` row, which the host made from the
  bias vector by adding a leading unit axis — so its entry `(0, j)` is the bias at `j`.
-/
import proofs.«107318_j72052371357831_1_alg».proof.Proof.Gen.KernelIdeal.Frame
import proofs.«107318_j72052371357831_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Spec

variable {F : FTy → Type} [FloatOps F]
variable (m : (ℓ : Loc nD τ sig) → Buf (Elt F) ℓ)

/-- The row block and the contraction block of point `n` (read modulo 16, so that they are defined for every natural). -/
def rowBlk (n : ℕ) : Fin 16 := ⟨n / 16 % 16, Nat.mod_lt _ (by norm_num)⟩
def conBlk (n : ℕ) : Fin 16 := ⟨n % 16, Nat.mod_lt _ (by norm_num)⟩

theorem rowBlk_val (n : ℕ) : (rowBlk n).val = n / 16 % 16 := rfl
theorem conBlk_val (n : ℕ) : (conBlk n).val = n % 16 := rfl

/-- Row `r` of row block `q`: `512 * q + r`. -/
def row (q : Fin 16) (r : Fin 512) : Fin 8192 :=
  ⟨512 * q.val + r.val, by have := q.isLt; have := r.isLt; omega⟩

theorem row_val (q : Fin 16) (r : Fin 512) : (row q r).val = 512 * q.val + r.val := rfl

/-! ## The windows' block indices, decided over the grid -/

theorem idx_x1 : ∀ t : Fin cfg0.N, win0_0.index t (0 : Fin 2) = t.val / 16 % 16 ∧ win0_0.index t (1 : Fin 2) = t.val % 16 :=
  (by decide +kernel : ∀ t : Fin grid0.N, win0_0.index t (0 : Fin 2) = t.val / 16 % 16 ∧ win0_0.index t (1 : Fin 2) = t.val % 16)
theorem idx_x2 : ∀ t : Fin cfg0.N, win0_1.index t (0 : Fin 2) = t.val / 16 % 16 ∧ win0_1.index t (1 : Fin 2) = t.val % 16 :=
  (by decide +kernel : ∀ t : Fin grid0.N, win0_1.index t (0 : Fin 2) = t.val / 16 % 16 ∧ win0_1.index t (1 : Fin 2) = t.val % 16)
theorem idx_w : ∀ t : Fin cfg0.N, win0_2.index t (0 : Fin 2) = 0 ∧ win0_2.index t (1 : Fin 2) = t.val % 16 :=
  (by decide +kernel : ∀ t : Fin grid0.N, win0_2.index t (0 : Fin 2) = 0 ∧ win0_2.index t (1 : Fin 2) = t.val % 16)
theorem idx_b : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_out : ∀ t : Fin cfg0.N, win0_4.index t (0 : Fin 1) = t.val / 16 % 16 :=
  (by decide +kernel : ∀ t : Fin grid0.N, win0_4.index t (0 : Fin 1) = t.val / 16 % 16)

/-! ## The blocks -/

/-- The first input's block at point `t`, at `(r, kk)`. -/
theorem x1_block (c : Dev nD) (t : Fin cfg0.N) (r : Fin 512) (kk : Fin 256) :
    (iblk m c 0 t : Vec F S512x256 .f32) (ix2 r kk)
      = m ((c : Thread nD τ).loc main_arg0) (ix2 (row (rowBlk t.val) r) (pos (conBlk t.val) kk)) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * (t.val / 16 % 16) + r.val; rw [(idx_x1 t).1]; omega
  | ⟨1, _⟩ => show win0_0.index t 1 * 256 + 1 * kk.val = 256 * (t.val % 16) + kk.val; rw [(idx_x1 t).2]; omega

/-- The second input's block at point `t`, at `(r, kk)`. -/
theorem x2_block (c : Dev nD) (t : Fin cfg0.N) (r : Fin 512) (kk : Fin 256) :
    (iblk m c 1 t : Vec F S512x256 .f32) (ix2 r kk)
      = m ((c : Thread nD τ).loc main_arg1) (ix2 (row (rowBlk t.val) r) (pos (conBlk t.val) kk)) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = 512 * (t.val / 16 % 16) + r.val; rw [(idx_x2 t).1]; omega
  | ⟨1, _⟩ => show win0_1.index t 1 * 256 + 1 * kk.val = 256 * (t.val % 16) + kk.val; rw [(idx_x2 t).2]; omega

/-- The weight's block at point `t`, at `(j, kk)`: every row, the contraction block's columns. -/
theorem w_block (c : Dev nD) (t : Fin cfg0.N) (j : Fin 4096) (kk : Fin 256) :
    (iblk m c 2 t : Vec F S4096x256 .f32) (ix2 j kk)
      = m ((c : Thread nD τ).loc main_arg2) (ix2 j (pos (conBlk t.val) kk)) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 4096 + 1 * j.val = j.val; rw [(idx_w t).1]; omega
  | ⟨1, _⟩ => show win0_2.index t 1 * 256 + 1 * kk.val = 256 * (t.val % 16) + kk.val; rw [(idx_w t).2]; omega

/-- The bias row as the region finds it: the bias vector with a leading unit axis, the one host operation before
    the region. -/
theorem bias_array (c : Dev nD) :
    (V m c main_v0 : S1x4096.Idx → Elt F .f32)
      = shapeCast S1x4096 (m ((c : Thread nD τ).loc main_arg3)) shapeCasts_S4096_S1x4096 := by
  dsimp only [V, hostOps0]
  after_results
  rfl

/-- The bias's block at any point, at `(0, j)`: the bias at `j`. -/
theorem b_block (c : Dev nD) (t : Fin cfg0.N) (j : Fin 4096) :
    (iblk m c 3 t : Vec F S1x4096 .f32) (ix2 (0 : Fin 1) j) = m ((c : Thread nD τ).loc main_arg3) (ix1 j) := by
  unfold iblk
  rw [View.read_apply]
  show V m c main_v0 _ = _
  rw [bias_array]
  refine Eq.trans (congrArg (shapeCast S1x4096 (m ((c : Thread nD τ).loc main_arg3)) shapeCasts_S4096_S1x4096)
    (funext fun a => Fin.ext ?_)) (shapeCast_a_1a_apply (m ((c : Thread nD τ).loc main_arg3)) shapeCasts_S4096_S1x4096 (0 : Fin 1) j)
  match a with
  | ⟨0, _⟩ => show win0_3.index t 0 * 1 + 1 * 0 = 0; rw [(idx_b t).1]
  | ⟨1, _⟩ => show win0_3.index t 1 * 4096 + 1 * j.val = j.val; rw [(idx_b t).2]; omega

end Cert.KernelIdeal.Blocks

end
-- ==== Proof.Invariant.lean ====
/-
  What the two accumulators hold after each grid point of a row block's run, over the extended reals.

  A row block's run is its 16 consecutive grid points, one per contraction block. Point `n` contributes to
  accumulator `a`, at `(r, j)`, the partial contraction of its block,

      addend x W n (r, j) = ∑ kk < 256, x[512 * (n / 16) + r, 256 * (n % 16) + kk] * W[j, 256 * (n % 16) + kk].

  The first point of a run stores zeros and adds its addend; each later point adds its addend to what the point
  before left. So after the point at contraction block `kb ≤ 14` of the run starting at `b = 16 * (n / 16)` the
  accumulator holds, at every position, the zero word plus the sum of the addends of the points `b, …, b + kb`
  (the last point of a run also adds the bias and applies the activation: it is read separately, where the output
  block is).
-/
import proofs.«107318_j72052371357831_1_alg».proof.Proof.Gen.KernelIdeal.Value
import proofs.«107318_j72052371357831_1_alg».proof.Proof.Pieces
import proofs.«107318_j72052371357831_1_alg».proof.Proof.Payloads
import proofs.«107318_j72052371357831_1_alg».proof.Proof.Blocks

noncomputable section

namespace Cert.KernelIdeal.Invariant

open Cert.KernelIdeal Cert.KernelIdeal.Gen Idealize.ShloMosaic Idealize.ShloMosaic.TcCoe Idealize.SL.Sem
open Idealize.ShloMosaic.ValueIdx Cert.Spec Cert.KernelIdeal.Blocks Cert.KernelIdeal.Payloads Cert.KernelIdeal.Pieces
open Cert.KernelIdeal.Value (scAt0_0 scAt0_1 soutsAt0_0_eq soutsAt0_1_eq)

/-! ## The fold's steps, for any float instance -/

section AnyInstance

variable {F : FTy → Type} [FloatOps F]
variable (m : (ℓ : Loc nD τ sig) → Buf (Elt F) ℓ) (c : Dev nD)

/-- At the first point of a run the first accumulator is left at the zeros plus the block's partial contraction,
    whatever it held. -/
theorem first0 (n : ℕ) (hb : n < cfg0.N) (h0 : n % 16 = 0) (acc : Vec F S512x4096 .f32) :
    scAt0_0 m c n hb acc = k0_pay4 (iblk m c 0 (⟨n, hb⟩ : Fin cfg0.N)) (iblk m c 2 (⟨n, hb⟩ : Fin cfg0.N)) k0_pay1 := by
  have h1 : ¬n % 16 = 15 := by omega
  unfold scAt0_0
  rw [dif_pos h0, dif_neg h1]
  exact acc0_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- The same for the second accumulator. -/
theorem first1 (n : ℕ) (hb : n < cfg0.N) (h0 : n % 16 = 0) (acc : Vec F S512x4096 .f32) :
    scAt0_1 m c n hb acc = k0_pay5 (iblk m c 1 (⟨n, hb⟩ : Fin cfg0.N)) (iblk m c 2 (⟨n, hb⟩ : Fin cfg0.N)) k0_pay2 := by
  have h1 : ¬n % 16 = 15 := by omega
  unfold scAt0_1
  rw [dif_pos h0, dif_neg h1]
  exact acc1_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At a middle point of a run the first accumulator is left at what it held plus the block's partial contraction. -/
theorem mid0 (n : ℕ) (hb : n < cfg0.N) (h0 : ¬n % 16 = 0) (h1 : ¬n % 16 = 15) (acc : Vec F S512x4096 .f32) :
    scAt0_0 m c n hb acc = k0_pay4 (iblk m c 0 (⟨n, hb⟩ : Fin cfg0.N)) (iblk m c 2 (⟨n, hb⟩ : Fin cfg0.N)) acc := by
  unfold scAt0_0
  rw [dif_neg h0, dif_neg h1]
  exact acc0_step c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- The same for the second accumulator. -/
theorem mid1 (n : ℕ) (hb : n < cfg0.N) (h0 : ¬n % 16 = 0) (h1 : ¬n % 16 = 15) (acc : Vec F S512x4096 .f32) :
    scAt0_1 m c n hb acc = k0_pay5 (iblk m c 1 (⟨n, hb⟩ : Fin cfg0.N)) (iblk m c 2 (⟨n, hb⟩ : Fin cfg0.N)) acc := by
  unfold scAt0_1
  rw [dif_neg h0, dif_neg h1]
  exact acc1_step c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

end AnyInstance

/-! ## Over the extended reals -/

variable (m : (ℓ : Loc nD τ sig) → Buf (Elt Ideal) ℓ) (c : Dev nD)

/-- Point `n`'s contribution to an accumulator at a position: its block's partial contraction, read off the
    input `x` and the weight `W`. Defined for every natural `n` (the blocks read modulo 16). -/
def addend (x : SX.Idx → EReal) (W : SW.Idx → EReal) (n : ℕ) : S512x4096.Idx → EReal :=
  fun i => ∑ kk : Fin 256, x (ix2 (row (rowBlk n) (i 0)) (pos (conBlk n) kk)) * W (ix2 (i 1) (pos (conBlk n) kk))

theorem addend_apply (x : SX.Idx → EReal) (W : SW.Idx → EReal) (n : ℕ) (r : Fin 512) (j : Fin 4096) :
    addend x W n (ix2 r j) = ∑ kk : Fin 256, x (ix2 (row (rowBlk n) r) (pos (conBlk n) kk)) * W (ix2 j (pos (conBlk n) kk)) := rfl

/-- One accumulation step of the first accumulator at point `t`, at a position: what it held plus the point's addend. -/
theorem step0 (t : Fin cfg0.N) (acc : FVec Ideal S512x4096 .f32) (i : S512x4096.Idx) :
    k0_pay4 (F := Ideal) (iblk m c 0 t) (iblk m c 2 t) acc i
      = acc i + addend (m ((c : Thread nD τ).loc main_arg0)) (m ((c : Thread nD τ).loc main_arg2)) t.val i := by
  obtain ⟨r, j, rfl⟩ : ∃ (r : Fin 512) (j : Fin 4096), i = ix2 r j := ⟨i 0, i 1, eq_ix2 i⟩
  refine (pay4_apply (iblk m c 0 t) (iblk m c 2 t) acc r j).trans ?_
  refine congrArg (acc (ix2 r j) + ·) (Finset.sum_congr rfl fun kk _ => ?_)
  exact congrArg₂ (· * ·) (x1_block m c t r kk) (w_block m c t j kk)

/-- One accumulation step of the second accumulator at point `t`, at a position. -/
theorem step1 (t : Fin cfg0.N) (acc : FVec Ideal S512x4096 .f32) (i : S512x4096.Idx) :
    k0_pay5 (F := Ideal) (iblk m c 1 t) (iblk m c 2 t) acc i
      = acc i + addend (m ((c : Thread nD τ).loc main_arg1)) (m ((c : Thread nD τ).loc main_arg2)) t.val i := by
  obtain ⟨r, j, rfl⟩ : ∃ (r : Fin 512) (j : Fin 4096), i = ix2 r j := ⟨i 0, i 1, eq_ix2 i⟩
  refine (pay5_apply (iblk m c 1 t) (iblk m c 2 t) acc r j).trans ?_
  refine congrArg (acc (ix2 r j) + ·) (Finset.sum_congr rfl fun kk _ => ?_)
  exact congrArg₂ (· * ·) (x2_block m c t r kk) (w_block m c t j kk)

/-- THE FIRST ACCUMULATOR after point `t`, when `t` is not the last point of its run: the zero word plus the
    addends of the run's points up to `t`. -/
theorem acc0_after (t : Fin cfg0.N) (h14 : t.val % 16 ≤ 14) (i : S512x4096.Idx) :
    (outsAt0 m c t.val t.isLt).2.1 i
      = zw + ∑ s ∈ Finset.range (t.val % 16 + 1),
          addend (m ((c : Thread nD τ).loc main_arg0)) (m ((c : Thread nD τ).loc main_arg2)) (16 * (t.val / 16) + s) i := by
  rw [soutsAt0_0_eq m c t]
  refine Pipeline.accAt_add_apply _ _ (fun _ => zw)
    (addend (m ((c : Thread nD τ).loc main_arg0)) (m ((c : Thread nD τ).loc main_arg2))) (16 * (t.val / 16)) 14
    (fun h i => ?_) (fun n h acc i hlt hle => ?_) (t.val % 16) h14 _ i
  · show scAt0_0 m c (16 * (t.val / 16)) h _ i = zw + _
    rw [first0 m c (16 * (t.val / 16)) h (by omega)]
    exact (step0 m c ⟨16 * (t.val / 16), h⟩ k0_pay1 i).trans (congrArg (· + _) (pay1_apply i))
  · have h0 : ¬n % 16 = 0 := by omega
    have h1 : ¬n % 16 = 15 := by omega
    show scAt0_0 m c n h acc i = acc i + _
    rw [mid0 m c n h h0 h1]
    exact step0 m c ⟨n, h⟩ acc i

/-- THE SECOND ACCUMULATOR after point `t`, when `t` is not the last point of its run. -/
theorem acc1_after (t : Fin cfg0.N) (h14 : t.val % 16 ≤ 14) (i : S512x4096.Idx) :
    (outsAt0 m c t.val t.isLt).2.2 i
      = zw + ∑ s ∈ Finset.range (t.val % 16 + 1),
          addend (m ((c : Thread nD τ).loc main_arg1)) (m ((c : Thread nD τ).loc main_arg2)) (16 * (t.val / 16) + s) i := by
  rw [soutsAt0_1_eq m c t]
  refine Pipeline.accAt_add_apply _ _ (fun _ => zw)
    (addend (m ((c : Thread nD τ).loc main_arg1)) (m ((c : Thread nD τ).loc main_arg2))) (16 * (t.val / 16)) 14
    (fun h i => ?_) (fun n h acc i hlt hle => ?_) (t.val % 16) h14 _ i
  · show scAt0_1 m c (16 * (t.val / 16)) h _ i = zw + _
    rw [first1 m c (16 * (t.val / 16)) h (by omega)]
    exact (step1 m c ⟨16 * (t.val / 16), h⟩ k0_pay2 i).trans (congrArg (· + _) (pay2_apply i))
  · have h0 : ¬n % 16 = 0 := by omega
    have h1 : ¬n % 16 = 15 := by omega
    show scAt0_1 m c n h acc i = acc i + _
    rw [mid1 m c n h h0 h1]
    exact step1 m c ⟨n, h⟩ acc i

end Cert.KernelIdeal.Invariant

end
-- ==== Proof.Final.lean ====
/-
  The kernel's result array is the specification of its arguments.

  The output window's block moves with the row block and is written back once per run, after the run's last point
  (contraction block 15). There each accumulator takes its last step — so it holds the zero word plus all 16 addends
  of the run, which is the whole contraction (`Cert.Spec.sum_pos`, the zero word being zero) — then the bias and the
  activation, and the block stored is the lane sum of the two accumulators' product: at position `r` of row block
  `q`, the specification at row `512 * q + r`. The 16 blocks written back tile the 8192 rows, so the array ends
  holding the specification everywhere.
-/
import proofs.«107318_j72052371357831_1_alg».proof.Proof.Invariant

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernelIdeal.Blocks Cert.KernelIdeal.Payloads Cert.KernelIdeal.Pieces
open Cert.KernelIdeal.Invariant

variable (m : (ℓ : Loc nD τ sig) → Buf (Elt Ideal) ℓ) (ρ : Dev nD → PrngReg)

/-- The four argument arrays as launched, as plain functions into the extended reals. -/
abbrev argX1 (c : Dev nD) : SX.Idx → EReal := m ((c : Thread nD τ).loc main_arg0)
abbrev argX2 (c : Dev nD) : SX.Idx → EReal := m ((c : Thread nD τ).loc main_arg1)
abbrev argW (c : Dev nD) : SW.Idx → EReal := m ((c : Thread nD τ).loc main_arg2)
abbrev argB (c : Dev nD) : SB.Idx → EReal := m ((c : Thread nD τ).loc main_arg3)

/-! ## A run's addends are the contraction -/

/-- From the zero word, the addends of the 16 points of row block `q`'s run sum to the whole contraction of row
    `512 * q + r` of the input with row `j` of the weight. -/
theorem run_sum (x : SX.Idx → EReal) (W : SW.Idx → EReal) (q : ℕ) (hq : q < 16) (r : Fin 512) (j : Fin 4096) :
    zw + ∑ s ∈ Finset.range 16, addend x W (16 * q + s) (ix2 r j)
      = ∑ k : Fin 4096, x (ix2 (row ⟨q, hq⟩ r) k) * W (ix2 j k) := by
  rw [zw_eq, zero_add, Finset.sum_range, sum_pos]
  refine Finset.sum_congr rfl fun s _ => ?_
  rw [addend_apply]
  have eq : rowBlk (16 * q + s.val) = ⟨q, hq⟩ := Fin.ext (by show (16 * q + s.val) / 16 % 16 = q; have := s.isLt; omega)
  have es : conBlk (16 * q + s.val) = s := Fin.ext (by show (16 * q + s.val) % 16 = s.val; have := s.isLt; omega)
  rw [eq, es]

/-- The same with the last point's addend apart: what the run's first 15 points left, plus the last step. -/
theorem run_sum_last (x : SX.Idx → EReal) (W : SW.Idx → EReal) (q : ℕ) (hq : q < 16) (r : Fin 512) (j : Fin 4096) :
    (zw + ∑ s ∈ Finset.range 15, addend x W (16 * q + s) (ix2 r j)) + addend x W (16 * q + 15) (ix2 r j)
      = ∑ k : Fin 4096, x (ix2 (row ⟨q, hq⟩ r) k) * W (ix2 j k) := by
  rw [add_assoc, ← Finset.sum_range_succ (fun s => addend x W (16 * q + s) (ix2 r j)) 15]
  exact run_sum x W q hq r j

/-! ## The last point of a run -/

/-- After its last step the first accumulator holds the whole contraction. -/
theorem last0 (c : Dev nD) (t : Fin cfg0.N) (h1 : t.val % 16 = 15) (r : Fin 512) (j : Fin 4096) :
    k0_pay4 (F := Ideal) (iblk m c 0 t) (iblk m c 2 t) (outsAt0 m c (t.val - 1) (Nat.lt_of_le_of_lt (Nat.sub_le _ _) t.isLt)).2.1 (ix2 r j)
      = ∑ k : Fin 4096, (argX1 m c) (ix2 (row (rowBlk t.val) r) k) * (argW m c) (ix2 j k) := by
  have hN : cfg0.N = 256 := N_0
  have ht := t.isLt
  rw [step0 m c t _ (ix2 r j), acc0_after m c ⟨t.val - 1, by omega⟩ (by show (t.val - 1) % 16 ≤ 14; omega) (ix2 r j)]
  have e1 : (t.val - 1) % 16 + 1 = 15 := by omega
  have e2 : 16 * ((t.val - 1) / 16) = 16 * (t.val / 16) := by omega
  have e3 : addend (argX1 m c) (argW m c) t.val = addend (argX1 m c) (argW m c) (16 * (t.val / 16) + 15) :=
    congrArg (addend (argX1 m c) (argW m c)) (by omega)
  have e4 : rowBlk t.val = ⟨t.val / 16, by omega⟩ := Fin.ext (by show t.val / 16 % 16 = t.val / 16; omega)
  show zw + ∑ s ∈ Finset.range ((t.val - 1) % 16 + 1), addend (argX1 m c) (argW m c) (16 * ((t.val - 1) / 16) + s) (ix2 r j)
      + addend (argX1 m c) (argW m c) t.val (ix2 r j) = _
  rw [e1, e2, e3, e4]
  exact run_sum_last (argX1 m c) (argW m c) (t.val / 16) (by omega) r j

/-- After its last step the second accumulator holds the whole contraction. -/
theorem last1 (c : Dev nD) (t : Fin cfg0.N) (h1 : t.val % 16 = 15) (r : Fin 512) (j : Fin 4096) :
    k0_pay5 (F := Ideal) (iblk m c 1 t) (iblk m c 2 t) (outsAt0 m c (t.val - 1) (Nat.lt_of_le_of_lt (Nat.sub_le _ _) t.isLt)).2.2 (ix2 r j)
      = ∑ k : Fin 4096, (argX2 m c) (ix2 (row (rowBlk t.val) r) k) * (argW m c) (ix2 j k) := by
  have hN : cfg0.N = 256 := N_0
  have ht := t.isLt
  rw [step1 m c t _ (ix2 r j), acc1_after m c ⟨t.val - 1, by omega⟩ (by show (t.val - 1) % 16 ≤ 14; omega) (ix2 r j)]
  have e1 : (t.val - 1) % 16 + 1 = 15 := by omega
  have e2 : 16 * ((t.val - 1) / 16) = 16 * (t.val / 16) := by omega
  have e3 : addend (argX2 m c) (argW m c) t.val = addend (argX2 m c) (argW m c) (16 * (t.val / 16) + 15) :=
    congrArg (addend (argX2 m c) (argW m c)) (by omega)
  have e4 : rowBlk t.val = ⟨t.val / 16, by omega⟩ := Fin.ext (by show t.val / 16 % 16 = t.val / 16; omega)
  show zw + ∑ s ∈ Finset.range ((t.val - 1) % 16 + 1), addend (argX2 m c) (argW m c) (16 * ((t.val - 1) / 16) + s) (ix2 r j)
      + addend (argX2 m c) (argW m c) t.val (ix2 r j) = _
  rw [e1, e2, e3, e4]
  exact run_sum_last (argX2 m c) (argW m c) (t.val / 16) (by omega) r j

/-- The kernel's result array: the specification of the four arguments as launched. -/
def result (c : Dev nD) : Buf (Elt Ideal) ((c : Thread nD τ).loc main_v1) :=
  G (argX1 m c) (argX2 m c) (argW m c) (argB m c)

/-- The output block stored at the last point of a run, at position `r`: the specification at row `r` of the
    run's row block. -/
theorem out_value (c : Dev nD) (t : Fin cfg0.N) (h1 : t.val % 16 = 15) (r : Fin 512) :
    k0_pay9 (F := Ideal)
        (k0_pay7 (iblk m c 3 t) (k0_pay4 (iblk m c 0 t) (iblk m c 2 t) (outsAt0 m c (t.val - 1) (Nat.lt_of_le_of_lt (Nat.sub_le _ _) t.isLt)).2.1))
        (k0_pay8 (iblk m c 3 t) (k0_pay5 (iblk m c 1 t) (iblk m c 2 t) (outsAt0 m c (t.val - 1) (Nat.lt_of_le_of_lt (Nat.sub_le _ _) t.isLt)).2.2))
        (ix1 r)
      = result m c (ix1 (row (rowBlk t.val) r)) := by
  rw [pay9_apply]
  show _ = zw + ∑ j : Fin 4096, max (lin (argX1 m c) (argW m c) (argB m c) (row (rowBlk t.val) r) j) zw
      * max (lin (argX2 m c) (argW m c) (argB m c) (row (rowBlk t.val) r) j) zw
  rw [zw_eq, zero_add]
  refine Finset.sum_congr rfl fun j _ => ?_
  rw [pay7_apply, pay8_apply, b_block m c t j, last0 m c t h1 r j, last1 m c t h1 r j, zw_eq]
  rfl

/-! ## From the blocks to the array -/

/-- What a flushing point writes back is its block of the result. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  have h0 : ¬t.val % 16 = 0 := by omega
  rw [Value.flushed4_C m c t h0 h1,
    out_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
  funext y
  have he : ((cfg0.win 4).blk t).view.emb y = ix1 (row (rowBlk t.val) (y 0)) := funext fun a => Fin.ext (by
    match a with
    | ⟨0, _⟩ => show win0_4.index t 0 * 512 + 1 * (y 0).val = 512 * (t.val / 16 % 16) + (y 0).val; rw [idx_out t]; omega)
  show k0_pay9 (F := Ideal) _ _ y = result m c (((cfg0.win 4).blk t).view.emb y)
  rw [he, eq_ix1 y]
  exact out_value m c t h1 (y 0)

/-- An index of the result array is in point `t`'s block iff its row is in the block's range. -/
theorem mem_blk (t : Fin cfg0.N) (i : S8192.Idx) :
    i ∈ ((cfg0.win 4).blk t).view.set ↔ ∀ a : Fin 1, win0_4.index t a * S512.size a ≤ (i a).val ∧ (i a).val < win0_4.index t a * S512.size a + S512.size a := by
  show i ∈ ((View.whole main_v1).slice (win0_4.rect t)).set ↔ _
  rw [View.set_slice_whole, Rect.mem_set_unit]
  exact Iff.rfl

/-- Every row is in the block some run writes back: row `n` in the block of the last point of run `n / 512`. -/
theorem cover (i : S8192.Idx) : ∃ t : Fin cfg0.N, (cfg0.win 4).flush t = true ∧ i ∈ ((cfg0.win 4).blk t).view.set := by
  have hN : cfg0.N = 256 := N_0
  have hi : (i 0).val < 8192 := (i 0).isLt
  refine ⟨⟨16 * ((i 0).val / 512) + 15, by omega⟩, (flush0_4 _).mpr (by show (16 * ((i 0).val / 512) + 15) % 16 = 15; omega), ?_⟩
  rw [mem_blk]
  intro a
  match a with
  | ⟨0, _⟩ =>
    show win0_4.index ⟨16 * ((i 0).val / 512) + 15, _⟩ 0 * 512 ≤ (i 0).val ∧ (i 0).val < win0_4.index ⟨16 * ((i 0).val / 512) + 15, _⟩ 0 * 512 + 512
    rw [idx_out]
    show (16 * ((i 0).val / 512) + 15) / 16 % 16 * 512 ≤ (i 0).val ∧ (i 0).val < (16 * ((i 0).val / 512) + 15) / 16 % 16 * 512 + 512
    omega

/-- The result array after the run is the specification. -/
theorem final (c : Dev nD) : (dats m 0 c).arrAt 4 cfg0.N = result m c :=
  (dats m 0 c).arrAt_eq_of_cover 4 (result m c) (flushed_eq m c) (cover)

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.RefSpec.lean ====
/-
  The reference computes the specification.

  Read one operation at a time, the reference's result at row `n` is, from the zero word, the sum over `j` of the
  product of two terms `max (d[n, j] + b'[n, j]) 0`, where `d` is the product of an input with the transposed weight
  — at `(n, j)` the sum over `k` of `x[n, k] * W[j, k]`, the transpose reading `W` at the swapped position — and
  `b'` is the bias spread over the rows, `b[j]` at every `(n, j)`. That is `Cert.Spec.G`, term for term: only the
  indices need identifying.
-/
import proofs.«107318_j72052371357831_1_alg».proof.Proof.Gen.ReferenceIdeal.Read
import proofs.«107318_j72052371357831_1_alg».proof.Proof.Spec

noncomputable section

namespace Cert.ReferenceIdeal.RefSpec

open Cert.ReferenceIdeal Cert.ReferenceIdeal.Read Idealize.ShloMosaic Idealize.ShloMosaic.ValueIdx Cert.Spec

/-! ## The reference's index functions at a row `n` and a column `j` -/

/-- The summed index of the last reduction is `(n, j)`. -/
theorem red_idx (n : Fin 8192) (j : Fin 4096) : idx_main_v13 (ix1 n) j = ix2 n j :=
  funext fun a => Fin.ext (by match a with | ⟨0, _⟩ => rfl | ⟨1, _⟩ => rfl)

/-- First layer: the input is read at `(n, k)`, … -/
theorem l1_idx (n : Fin 8192) (j k : Fin 4096) : lidx_main_v1 (ix2 n j) k = ix2 n k :=
  funext fun a => Fin.ext (by match a with | ⟨0, _⟩ => rfl | ⟨1, _⟩ => rfl)
/-- … the weight, through the transpose, at `(j, k)`, … -/
theorem r1_idx (n : Fin 8192) (j k : Fin 4096) : idx_main_v0 (ridx_main_v1 (ix2 n j) k) = ix2 j k :=
  funext fun a => Fin.ext (by match a with | ⟨0, _⟩ => rfl | ⟨1, _⟩ => rfl)
/-- … the bias, through its two broadcasts, at `j`. -/
theorem b1_idx (n : Fin 8192) (j : Fin 4096) : idx_main_v2 (idx_main_v3 (ix2 n j)) = ix1 j :=
  funext fun a => Fin.ext (by match a with | ⟨0, _⟩ => rfl)

/-- Second layer: the same three. -/
theorem l2_idx (n : Fin 8192) (j k : Fin 4096) : lidx_main_v7 (ix2 n j) k = ix2 n k :=
  funext fun a => Fin.ext (by match a with | ⟨0, _⟩ => rfl | ⟨1, _⟩ => rfl)
theorem r2_idx (n : Fin 8192) (j k : Fin 4096) : idx_main_v6 (ridx_main_v7 (ix2 n j) k) = ix2 j k :=
  funext fun a => Fin.ext (by match a with | ⟨0, _⟩ => rfl | ⟨1, _⟩ => rfl)
theorem b2_idx (n : Fin 8192) (j : Fin 4096) : idx_main_v8 (idx_main_v9 (ix2 n j)) = ix1 j :=
  funext fun a => Fin.ext (by match a with | ⟨0, _⟩ => rfl)

/-! ## The layers -/

/-- The first layer before its activation, at `(n, j)`. -/
theorem layer1 (x0 : (⟨S8192x4096, .f32⟩ : BufTy).Contents (Elt Ideal)) (x2 : (⟨S4096x4096, .f32⟩ : BufTy).Contents (Elt Ideal)) (x3 : (⟨S4096, .f32⟩ : BufTy).Contents (Elt Ideal)) (n : Fin 8192) (j : Fin 4096) :
    val_main_v4 (F := Ideal) x0 x2 x3 (ix2 n j) = lin x0 x2 x3 n j := by
  rw [val_main_v4_apply, val_main_v1_apply, val_main_v3_apply, val_main_v2_apply, b1_idx]
  simp only [val_main_v0_apply, l1_idx, r1_idx]
  rfl

/-- The second layer before its activation, at `(n, j)`. -/
theorem layer2 (x1 : (⟨S8192x4096, .f32⟩ : BufTy).Contents (Elt Ideal)) (x2 : (⟨S4096x4096, .f32⟩ : BufTy).Contents (Elt Ideal)) (x3 : (⟨S4096, .f32⟩ : BufTy).Contents (Elt Ideal)) (n : Fin 8192) (j : Fin 4096) :
    val_main_v10 (F := Ideal) x1 x2 x3 (ix2 n j) = lin x1 x2 x3 n j := by
  rw [val_main_v10_apply, val_main_v7_apply, val_main_v9_apply, val_main_v8_apply, b2_idx]
  simp only [val_main_v6_apply, l2_idx, r2_idx]
  rfl

/-- The activation's other operand, at any position: the zero word. -/
theorem relu0_1 (i : S8192x4096.Idx) : val_main_call0_v0 (F := Ideal) i = zw := by
  rw [val_main_call0_v0_apply]; rfl
theorem relu0_2 (i : S8192x4096.Idx) : val_main_call1_v0 (F := Ideal) i = zw := by
  rw [val_main_call1_v0_apply]; rfl

/-! ## The reference is the specification -/

/-- The reference's result, as the generated reading states it, is `G` of the four arguments. -/
theorem ref_eq (x0 x1 : (⟨S8192x4096, .f32⟩ : BufTy).Contents (Elt Ideal)) (x2 : (⟨S4096x4096, .f32⟩ : BufTy).Contents (Elt Ideal)) (x3 : (⟨S4096, .f32⟩ : BufTy).Contents (Elt Ideal)) :
    val_main_v13 (F := Ideal) x0 x1 x2 x3 = G x0 x1 x2 x3 := by
  funext i
  obtain ⟨n, rfl⟩ : ∃ n : Fin 8192, i = ix1 n := ⟨i 0, eq_ix1 i⟩
  rw [val_main_v13_apply]
  unfold G
  refine congrArg₂ (· + ·) rfl (Finset.sum_congr rfl fun j _ => ?_)
  rw [red_idx]
  show max (val_main_v4 (F := Ideal) x0 x2 x3 (ix2 n j)) (val_main_call0_v0 (F := Ideal) (ix2 n j))
      * max (val_main_v10 (F := Ideal) x1 x2 x3 (ix2 n j)) (val_main_call1_v0 (F := Ideal) (ix2 n j)) = _
  rw [layer1, layer2, relu0_1, relu0_2]

end Cert.ReferenceIdeal.RefSpec

end
-- ==== Proof.lean ====
/-
  Two linear layers sharing one weight, activated and contracted row by row: the kernel against its reference.

  For inputs `x1, x2 : [8192, 4096]`, a weight `W : [4096, 4096]` and a bias `b : [4096]`, both programs compute

      out[n] = ∑ j, max ((∑ k, x1[n, k] * W[j, k]) + b[j]) 0 * max ((∑ k, x2[n, k] * W[j, k]) + b[j]) 0

  (`Cert.Spec.G`). The reference does it with whole-array operations: the product with the transposed weight, the
  bias spread over the rows, the maximum with zero, the pointwise product, the sum along each row.

  The kernel works on a 16 × 16 grid: 16 row blocks of 512 rows, and for each of them 16 contraction blocks of 256
  columns. Two accumulators of 512 × 4096 entries are carried from one grid point to the next. At a row block's first
  contraction block they are zeroed; at every contraction block each receives that block's partial products, the
  inputs narrowed to a shorter float format on the way in, which changes no value over the extended reals; at the
  last contraction block the bias is added, the maximum with zero taken, and the row sums of the two accumulators'
  product are stored as the row block's 512 results.

  So the kernel computes each contraction of length 4096 as the sum of 16 partial contractions of length 256, from
  zero, and the one law that joins the two programs is that a finite sum may be taken block by block
  (`Cert.SumBlocks.sum_blocks`, specialised in `Cert.Spec.sum_pos`): commutativity and associativity of the addition of
  extended reals, which hold at the infinities too. No finiteness of the inputs is used. Everything else is reading
  indices: which rows and columns a grid point's blocks are (`Cert.KernelIdeal.Blocks`), what the body's stored
  values are at a position (`Cert.KernelIdeal.Payloads`), what one run of the body leaves in each buffer
  (`Cert.KernelIdeal.Pieces`), what the accumulators hold after each grid point (`Cert.KernelIdeal.Invariant`: the
  zero word plus the partial contractions so far), and that the 16 blocks written back tile the result
  (`Cert.KernelIdeal.Final`). The reference read one operation at a time is the same function
  (`Cert.ReferenceIdeal.RefSpec`).

  The idealization rewrote no operation of the kernel, so that conjunct is trivial. The three programs' runs, ending
  with their arguments unchanged, are the generated frame runs of the two kernels and the generated run of the
  reference.
-/
import proofs.«107318_j72052371357831_1_alg».proof.Defs
import proofs.«107318_j72052371357831_1_alg».proof.Proof.Gen.Kernel
import proofs.«107318_j72052371357831_1_alg».proof.Proof.Gen.Kernel.Frame
import proofs.«107318_j72052371357831_1_alg».proof.Proof.Gen.KernelIdeal
import proofs.«107318_j72052371357831_1_alg».proof.Proof.Gen.KernelIdeal.Frame
import proofs.«107318_j72052371357831_1_alg».proof.Proof.Gen.KernelIdeal.Value
import proofs.«107318_j72052371357831_1_alg».proof.Proof.Gen.ReferenceIdeal
import proofs.«107318_j72052371357831_1_alg».proof.Proof.Gen.ReferenceIdeal.Run
import proofs.«107318_j72052371357831_1_alg».proof.Proof.Gen.ReferenceIdeal.Read
import proofs.«107318_j72052371357831_1_alg».proof.Proof.Gen.Pre_finite_inputs
import proofs.«107318_j72052371357831_1_alg».proof.Proof.Final
import proofs.«107318_j72052371357831_1_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result array ends at the specification of its arguments
    (`Cert.KernelIdeal.Final.run`) and the reference's at the specification of its own (`RefSpec.ref_eq`); the
    arguments agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefSpec.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
